-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i32⟩
  | .hbm, ⟨4, _⟩ => ⟨S32x2048x64, .f32⟩
  | .hbm, ⟨5, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .i32⟩
  | .hbm, ⟨9, _⟩ => ⟨S32x2048x2048, .i32⟩
  | .hbm, ⟨10, _⟩ => ⟨S32x2048x2048, .i1⟩
  | .hbm, ⟨11, _⟩ => ⟨S_, .f32⟩
  | .hbm, ⟨12, _⟩ => ⟨S_, .f32⟩
  | .hbm, ⟨13, _⟩ => ⟨S32x2048x2048, .f32⟩
  | .hbm, ⟨14, _⟩ => ⟨S32x2048x2048, .f32⟩
  | .hbm, ⟨15, _⟩ => ⟨S_, .f32⟩
  | .hbm, ⟨16, _⟩ => ⟨S32x2048, .f32⟩
  | .hbm, ⟨17, _⟩ => ⟨S_, .f32⟩
  | .hbm, ⟨18, _⟩ => ⟨S32x2048, .f32⟩
  | .hbm, ⟨19, _⟩ => ⟨S32x2048, .f32⟩
  | .hbm, ⟨20, _⟩ => ⟨S32x2048x1, .f32⟩
  | .hbm, ⟨21, _⟩ => ⟨S32x2048x2048, .f32⟩
  | .hbm, ⟨22, _⟩ => ⟨S32x2048x2048, .f32⟩
  | .hbm, ⟨23, _⟩ => ⟨S32x2048x2048, .f32⟩
  | .hbm, ⟨24, _⟩ => ⟨S_, .f32⟩
  | .hbm, ⟨25, _⟩ => ⟨S32x2048, .f32⟩
  | .hbm, ⟨26, _⟩ => ⟨S32x2048x1, .f32⟩
  | .hbm, ⟨27, _⟩ => ⟨S32x2048x2048, .f32⟩
  | .hbm, ⟨28, _⟩ => ⟨S32x2048x2048, .f32⟩
  | .hbm, ⟨29, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSoftmax.lean ====
/-
  A row softmax taken with vector operations, read at an index, over the extended reals.

  For a row s of b extended reals and a float word acc, the row's maximum is the fold of max over its entries
  from the value acc denotes; each entry's weight is exp (s j − maximum) divided by the sum over the row of
  those exponentials. For an a × b matrix S the vector operations compute exactly this, row by row: a
  reduction <maximumf> over the columns, stood up as an a × 1 column and spread back over the b columns, taken
  off S, exponentiated; then a reduction <add> of the exponentials, stood up and spread the same way, dividing
  them. Read at (p, j) the result is the weight of entry j in row p of S.
-/
import proofs.«135581_j9517647528307_2_alg».proof.Proof.LibRowOps

noncomputable section

open scoped BigOperators

namespace Idealize.ShloMosaic.RowSoftmax

open Idealize.ShloMosaic Idealize.ShloMosaic.ValueIdx Idealize.ShloMosaic.RowOps

/-- The largest entry of a row, folded from the value the float word `acc` denotes. -/
def rowMax (acc : BitVec 32) {n : Nat} (s : Fin n → EReal) : EReal :=
  (Finset.univ : Finset (Fin n)).fold max (Ideal.ofBits .f32 acc) s

/-- The exponential of an entry after the row's maximum is taken off. -/
def expo (acc : BitVec 32) {n : Nat} (s : Fin n → EReal) (j : Fin n) : EReal := Ideal.exp (s j - rowMax acc s)

/-- An entry's softmax weight in its row. -/
def weight (acc : BitVec 32) {n : Nat} (s : Fin n → EReal) (j : Fin n) : EReal :=
  Ideal.div (expo acc s j) (∑ k : Fin n, expo acc s k)

/-- The row's maximum is at least the value it was folded from, so taking the larger of the two changes nothing. -/
theorem max_init_rowMax (acc : BitVec 32) {n : Nat} (s : Fin n → EReal) :
    max (Ideal.ofBits .f32 acc) (rowMax acc s) = rowMax acc s :=
  max_eq_right ((Finset.le_fold_max _).mpr (Or.inl le_rfl))

variable {a b : Nat}

/-- The matrix of exponentials exp (S − row maximum), as the vector operations compute it. -/
def expShift (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩
    (shapeCast ⟨2, ![a, 1]⟩ (multiReduction .maximumf [1] ⟨1, ![a]⟩ S acc h hφ hacc) hc) hb))

/-- The row softmax of a matrix, as the vector operations compute it. -/
def softmaxVec (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expShift S acc h hφ hacc hc hb) (broadcastTo ⟨2, ![a, b]⟩
    (shapeCast ⟨2, ![a, 1]⟩ (multiReduction .add [1] ⟨1, ![a]⟩ (expShift S acc h hφ hacc hc hb) zero h hφ hzero) hc) hb)

/-- The exponentials at (p, j): exp of entry j of row p less that row's maximum. -/
theorem expShift_apply (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    expShift S acc h hφ hacc hc hb (ix2 p j) = expo acc (fun k => S (ix2 p k)) j := by
  show Ideal.exp (S (ix2 p j) - broadcastTo ⟨2, ![a, b]⟩
    (shapeCast ⟨2, ![a, 1]⟩ (multiReduction .maximumf [1] ⟨1, ![a]⟩ S acc h hφ hacc) hc) hb (ix2 p j)) = _
  rw [colBcast_apply, colCast_apply, rowMax_vector]
  rfl

/-- The row softmax at (p, j): the weight of entry j in row p. -/
theorem softmaxVec_apply (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    softmaxVec S acc zero h hφ hacc hzero hc hb (ix2 p j) = weight acc (fun k => S (ix2 p k)) j := by
  show Ideal.div (expShift S acc h hφ hacc hc hb (ix2 p j)) (broadcastTo ⟨2, ![a, b]⟩
    (shapeCast ⟨2, ![a, 1]⟩ (multiReduction .add [1] ⟨1, ![a]⟩ (expShift S acc h hφ hacc hc hb) zero h hφ hzero) hc) hb
      (ix2 p j)) = _
  rw [colBcast_apply, colCast_apply, rowSum_vector]
  simp only [expShift_apply]
  rfl

end Idealize.ShloMosaic.RowSoftmax

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.AttentionSpec.lean ====
/-
  Masked scaled dot-product attention over the extended reals, as functions of the argument arrays.

  For queries Q, keys K, values V (32 batches of 2048 rows of 64 numbers) and an integer mask M (32 × 2048 × 2048):
  the score of query row p against key row j of batch b is the dot product of the two rows scaled by one eighth,
  kept where M is positive and replaced by the fill value -1e9 elsewhere; the attention weights of row p are the
  softmax of its 2048 scores; the output row is the weights' combination of the value rows.

  The scaling is spelt in two ways: every query entry multiplied by the float 0.125 before the products are
  summed, or the sum of the products divided by the float 8.0. The first float denotes the real 1/8 and the
  second the real 8, so on rows of real numbers the two spellings are the same real number: multiplication
  distributes over a finite sum of reals. (At an infinite entry it need not, which is why the rows are asked
  to be real.)
-/
import Idealize.ShloMosaic.PureOps.Ideal
import Idealize.ShloMosaic.Lib.ValueIdx
import proofs.«135581_j9517647528307_2_alg».proof.Proof.LibRowSoftmax
import proofs.«135581_j9517647528307_2_alg».proof.Proof.LibRealSums

noncomputable section

open scoped BigOperators

namespace Cert.Attention

open Idealize.ShloMosaic Idealize.ShloMosaic.ValueIdx Idealize.ShloMosaic.RowSoftmax

/-- The float 0.125 denotes the real 1/8. -/
theorem eighth_eq : Ideal.ofBits .f32 0x3E000000#32 = ((1 / 8 : ℝ) : EReal) := by
  simp [Ideal.ofBits, Ideal.ieee, -EReal.coe_mul]; norm_num

/-- The float 8.0 denotes the real 8. -/
theorem eight_eq : Ideal.ofBits .f32 0x41000000#32 = ((8 : ℝ) : EReal) := by
  simp [Ideal.ofBits, Ideal.ieee, -EReal.coe_mul]; norm_num

/-- A score where the mask is positive, the fill value -1e9 elsewhere. -/
def keep (mk : BitVec 32) (x : EReal) : EReal :=
  Scalar.select (IntOp.cmpi .sgt mk 0#32) x (Ideal.ofBits .f32 0xCE6E6B28#32)

/-- The dot product of two rows with every entry of the first multiplied by 0.125. -/
def dotScaled {n : Nat} (u w : Fin n → EReal) : EReal := ∑ d : Fin n, (u d * Ideal.ofBits .f32 0x3E000000#32) * w d

/-- The dot product of two rows divided by 8.0. -/
def dotOver8 {n : Nat} (u w : Fin n → EReal) : EReal :=
  Ideal.div (∑ d : Fin n, u d * w d) (Ideal.ofBits .f32 0x41000000#32)

/-- On rows of real numbers the two scalings agree: ∑ (u·(1/8))·w = (∑ u·w)/8. -/
theorem dotScaled_eq_dotOver8 {n : Nat} (u w : Fin n → EReal) (hu : ∀ d, ∃ r : ℝ, u d = (r : EReal))
    (hw : ∀ d, ∃ r : ℝ, w d = (r : EReal)) : dotScaled u w = dotOver8 u w := by
  choose x hx using hu
  choose y hy using hw
  obtain rfl : u = fun d => (x d : EReal) := funext hx
  obtain rfl : w = fun d => (y d : EReal) := funext hy
  unfold dotScaled dotOver8
  rw [eighth_eq, eight_eq]
  simp only [← EReal.coe_mul, Cert.RealSums.coe_finset_sum, Cert.RealSums.div_coe_coe _ (by norm_num : (8 : ℝ) ≠ 0)]
  refine congrArg (fun r : ℝ => (r : EReal)) ?_
  rw [Finset.sum_div]
  exact Finset.sum_congr rfl fun d _ => by ring

/-- The 2048 masked scores of query row p of batch b. -/
def scoreRow (Q K : (⟨3, ![32, 2048, 64]⟩ : Shape).Idx → EReal) (M : (⟨3, ![32, 2048, 2048]⟩ : Shape).Idx → BitVec 32)
    (b : Fin 32) (p : Fin 2048) : Fin 2048 → EReal :=
  fun j => keep (M (ix3 b p j)) (dotScaled (fun d : Fin 64 => Q (ix3 b p d)) (fun d : Fin 64 => K (ix3 b j d)))

/-- The attention weight of key row j for query row p of batch b. -/
def attnAt (Q K : (⟨3, ![32, 2048, 64]⟩ : Shape).Idx → EReal) (M : (⟨3, ![32, 2048, 2048]⟩ : Shape).Idx → BitVec 32)
    (b : Fin 32) (p j : Fin 2048) : EReal :=
  weight 0xFF800000#32 (scoreRow Q K M b p) j

/-- Entry d of the output row for query row p of batch b: the weights' combination of the value rows. -/
def outAt (Q K V : (⟨3, ![32, 2048, 64]⟩ : Shape).Idx → EReal) (M : (⟨3, ![32, 2048, 2048]⟩ : Shape).Idx → BitVec 32)
    (b : Fin 32) (p : Fin 2048) (d : Fin 64) : EReal :=
  ∑ j : Fin 2048, attnAt Q K M b p j * V (ix3 b j d)

/-- The attention weights as one array. -/
def attnArr (Q K : (⟨3, ![32, 2048, 64]⟩ : Shape).Idx → EReal) (M : (⟨3, ![32, 2048, 2048]⟩ : Shape).Idx → BitVec 32) :
    (⟨3, ![32, 2048, 2048]⟩ : Shape).Idx → EReal :=
  fun i => attnAt Q K M ⟨(i 0).val, (i 0).isLt⟩ ⟨(i 1).val, (i 1).isLt⟩ ⟨(i 2).val, (i 2).isLt⟩

/-- The output as one array. -/
def outArr (Q K V : (⟨3, ![32, 2048, 64]⟩ : Shape).Idx → EReal) (M : (⟨3, ![32, 2048, 2048]⟩ : Shape).Idx → BitVec 32) :
    (⟨3, ![32, 2048, 64]⟩ : Shape).Idx → EReal :=
  fun i => outAt Q K V M ⟨(i 0).val, (i 0).isLt⟩ ⟨(i 1).val, (i 1).isLt⟩ ⟨(i 2).val, (i 2).isLt⟩

theorem attnArr_ix3 (Q K : (⟨3, ![32, 2048, 64]⟩ : Shape).Idx → EReal) (M : (⟨3, ![32, 2048, 2048]⟩ : Shape).Idx → BitVec 32)
    (b : Fin 32) (p j : Fin 2048) : attnArr Q K M (ix3 b p j) = attnAt Q K M b p j := rfl

theorem outArr_ix3 (Q K V : (⟨3, ![32, 2048, 64]⟩ : Shape).Idx → EReal) (M : (⟨3, ![32, 2048, 2048]⟩ : Shape).Idx → BitVec 32)
    (b : Fin 32) (p : Fin 2048) (d : Fin 64) : outArr Q K V M (ix3 b p d) = outAt Q K V M b p d := rfl

end Cert.Attention

end
-- ==== Proof.KernelBlock.lean ====
/-
  What one grid point of the attention kernel computes from its blocks, index by index, over the extended reals.

  A grid point holds a block of 512 query rows, the batch's 2048 key rows and 2048 value rows, and the
  512 × 2048 block of the mask, each with a leading axis of extent one. The attention block it stores is, at
  (r, j), the softmax weight of key row j among the masked scores of query row r: a score is the sum over the
  64 coordinates of (query · 0.125) · key (a matrix product contracting both operands' second axis, into a
  zero accumulator), kept where the mask is positive and -1e9 elsewhere. The output block is, at (r, d), the
  sum over the key rows j of that weight times value (j, d): a plain matrix product into a zero accumulator.
  Rounding to bfloat16 before a product is the identity on the extended reals.
-/
import proofs.«135581_j9517647528307_2_alg».proof.Proof.Gen.KernelIdeal.Skeleton
import Idealize.ShloMosaic.Lib.Pipeline.Value
import Idealize.ShloMosaic.Lib.ValueIdx
import Idealize.ShloMosaic.PureOps.Ideal.Laws
import proofs.«135581_j9517647528307_2_alg».proof.Proof.AttentionSpec

noncomputable section

open scoped BigOperators

namespace Cert.KernelIdeal.Block

open Cert.KernelIdeal Cert.KernelIdeal.Gen Idealize.ShloMosaic Idealize.ShloMosaic.ValueIdx
open Idealize.ShloMosaic.RowSoftmax Cert.Attention

/-- An array with a leading axis of extent one, cast to the matrix without it, reads (p, q) at (0, p, q). -/
theorem dropUnit_apply {a b : Nat} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h (ix2 p q) (ix3 (0 : Fin 1) p q) (by
    rw [Shape.rowMajor_val_three, Shape.rowMajor_val_two]
    show ((0 : Fin 1).val * a + p.val) * b + q.val = p.val * b + q.val
    simp)

/-- The dimension numbers of query · keyᵀ: both operands contract their second axis. -/
abbrev DQK : DotDims S512x64 S2048x64 S512x2048 := dot_S512x64_S2048x64_S512x2048_1_1_0_0_n_n
/-- The dimension numbers of weights · values: a plain matrix product. -/
abbrev DAV : DotDims S512x2048 S2048x64 S512x64 := dot_S512x2048_S2048x64_S512x64_1_0_0_1_n_n

theorem qk_lhs_row (i : S512x2048.Idx) (q : DQK.contr.Idx) : (DQK.lhsIdx i q 0).val = (i 0).val := by
  unfold DotDims.lhsIdx
  rw [dif_neg (show ¬(0 : Fin S512x64.rank) ∈ DQK.lhsBatch by decide),
    dif_pos (show (0 : Fin S512x64.rank) ∈ DQK.lhsNonContracting by decide)]
  rfl
theorem qk_lhs_col (i : S512x2048.Idx) (q : DQK.contr.Idx) : (DQK.lhsIdx i q 1).val = (q ⟨0, by decide⟩).val :=
  DQK.lhsIdx_val_of_single rfl i q
theorem qk_rhs_row (i : S512x2048.Idx) (q : DQK.contr.Idx) : (DQK.rhsIdx i q 0).val = (i 1).val := by
  unfold DotDims.rhsIdx
  rw [dif_neg (show ¬(0 : Fin S2048x64.rank) ∈ DQK.rhsBatch by decide),
    dif_pos (show (0 : Fin S2048x64.rank) ∈ DQK.rhsNonContracting by decide)]
  rfl
theorem qk_rhs_col (i : S512x2048.Idx) (q : DQK.contr.Idx) : (DQK.rhsIdx i q 1).val = (q ⟨0, by decide⟩).val :=
  DQK.rhsIdx_val_of_single rfl i q

/-- Query · keyᵀ into a zero accumulator, at (p, j): the sum over the 64 coordinates of l (p, d) · r (j, d). -/
theorem qk_apply (l : FVec Ideal S512x64 .bf16) (r : FVec Ideal S2048x64 .bf16) (p : Fin 512) (j : Fin 2048) :
    matmul DQK none l r (constant S512x2048 .f32 0x00000000#32) (ix2 p j) = ∑ d : Fin 64, l (ix2 p d) * r (ix2 j d) := by
  refine (Ideal.matmul_constant_zero_apply DQK none l r (ix2 p j)).trans ?_
  rw [← Equiv.sum_comp (contrEquiv1 DQK 64 rfl rfl).symm]
  refine Finset.sum_congr rfl fun k _ => ?_
  have hk := contrEquiv1_symm_val DQK 64 rfl rfl k
  have el : DQK.lhsIdx (ix2 p j) ((contrEquiv1 DQK 64 rfl rfl).symm k) = ix2 p k := funext fun a => Fin.ext (by
    match a with
    | ⟨0, _⟩ => exact qk_lhs_row _ _
    | ⟨1, _⟩ => exact (qk_lhs_col _ _).trans hk)
  have er : DQK.rhsIdx (ix2 p j) ((contrEquiv1 DQK 64 rfl rfl).symm k) = ix2 j k := funext fun a => Fin.ext (by
    match a with
    | ⟨0, _⟩ => exact qk_rhs_row _ _
    | ⟨1, _⟩ => exact (qk_rhs_col _ _).trans hk)
  rw [el, er]

theorem av_lhs_row (i : S512x64.Idx) (q : DAV.contr.Idx) : (DAV.lhsIdx i q 0).val = (i 0).val := by
  unfold DotDims.lhsIdx
  rw [dif_neg (show ¬(0 : Fin S512x2048.rank) ∈ DAV.lhsBatch by decide),
    dif_pos (show (0 : Fin S512x2048.rank) ∈ DAV.lhsNonContracting by decide)]
  rfl
theorem av_lhs_col (i : S512x64.Idx) (q : DAV.contr.Idx) : (DAV.lhsIdx i q 1).val = (q ⟨0, by decide⟩).val :=
  DAV.lhsIdx_val_of_single rfl i q
theorem av_rhs_row (i : S512x64.Idx) (q : DAV.contr.Idx) : (DAV.rhsIdx i q 0).val = (q ⟨0, by decide⟩).val :=
  DAV.rhsIdx_val_of_single rfl i q
theorem av_rhs_col (i : S512x64.Idx) (q : DAV.contr.Idx) : (DAV.rhsIdx i q 1).val = (i 1).val := by
  unfold DotDims.rhsIdx
  rw [dif_neg (show ¬(1 : Fin S2048x64.rank) ∈ DAV.rhsBatch by decide),
    dif_pos (show (1 : Fin S2048x64.rank) ∈ DAV.rhsNonContracting by decide)]
  rfl

/-- Weights · values into a zero accumulator, at (p, d): the sum over the 2048 key rows of l (p, j) · r (j, d). -/
theorem av_apply (l : FVec Ideal S512x2048 .bf16) (r : FVec Ideal S2048x64 .bf16) (p : Fin 512) (d : Fin 64) :
    matmul DAV none l r (constant S512x64 .f32 0x00000000#32) (ix2 p d) = ∑ j : Fin 2048, l (ix2 p j) * r (ix2 j d) := by
  refine (Ideal.matmul_constant_zero_apply DAV none l r (ix2 p d)).trans ?_
  rw [← Equiv.sum_comp (contrEquiv1 DAV 2048 rfl rfl).symm]
  refine Finset.sum_congr rfl fun k _ => ?_
  have hk := contrEquiv1_symm_val DAV 2048 rfl rfl k
  have el : DAV.lhsIdx (ix2 p d) ((contrEquiv1 DAV 2048 rfl rfl).symm k) = ix2 p k := funext fun a => Fin.ext (by
    match a with
    | ⟨0, _⟩ => exact av_lhs_row _ _
    | ⟨1, _⟩ => exact (av_lhs_col _ _).trans hk)
  have er : DAV.rhsIdx (ix2 p d) ((contrEquiv1 DAV 2048 rfl rfl).symm k) = ix2 k d := funext fun a => Fin.ext (by
    match a with
    | ⟨0, _⟩ => exact (av_rhs_row _ _).trans hk
    | ⟨1, _⟩ => exact av_rhs_col _ _)
  rw [el, er]

/-- The block of masked scores, as the body computes it from the query, key and mask blocks. -/
def scoresBlk (x0 : Vec Ideal S1x512x64 .f32) (x1 : Vec Ideal S1x2048x64 .f32) (x3 : Vec Ideal S1x512x2048 .i32) :
    FVec Ideal S512x2048 .f32 :=
  select (cmpi .sgt (shapeCast S512x2048 x3 shapeCasts_S1x512x2048_S512x2048) (broadcast S512x2048 (0#32 : BitVec 32)))
    (matmul DQK none
      (truncf .bf16 (mulf (shapeCast S512x64 x0 shapeCasts_S1x512x64_S512x64)
        (broadcast S512x64 (Scalar.ofBits .f32 0x3E000000#32))) bitsLt_bf16_f32)
      (truncf .bf16 (shapeCast S2048x64 x1 shapeCasts_S1x2048x64_S2048x64) bitsLt_bf16_f32)
      (constant S512x2048 .f32 0x00000000#32))
    (broadcast S512x2048 (Scalar.ofBits .f32 0xCE6E6B28#32))

/-- The masked score at (r, j): the scaled dot product of query row r and key row j where the mask is positive. -/
theorem scoresBlk_apply (x0 : Vec Ideal S1x512x64 .f32) (x1 : Vec Ideal S1x2048x64 .f32) (x3 : Vec Ideal S1x512x2048 .i32)
    (r : Fin 512) (j : Fin 2048) :
    scoresBlk x0 x1 x3 (ix2 r j)
      = keep (x3 (ix3 (0 : Fin 1) r j))
          (dotScaled (fun d : Fin 64 => x0 (ix3 (0 : Fin 1) r d)) (fun d : Fin 64 => x1 (ix3 (0 : Fin 1) j d))) := by
  unfold scoresBlk keep dotScaled
  rw [select_apply, qk_apply]
  show Scalar.select (IntOp.cmpi .sgt (shapeCast S512x2048 x3 shapeCasts_S1x512x2048_S512x2048 (ix2 r j)) 0#32) _ _ = _
  rw [dropUnit_apply]
  simp only [truncf_apply, mulf_apply, broadcast_apply, dropUnit_apply]
  rfl

/-- The attention block is the row softmax of the masked scores. -/
theorem pay2_eq (x0 : Vec Ideal S1x512x64 .f32) (x1 : Vec Ideal S1x2048x64 .f32) (x3 : Vec Ideal S1x512x2048 .i32) :
    k0_pay2 x0 x1 x3 = softmaxVec (scoresBlk x0 x1 x3) 0xFF800000#32 0x00000000#32 reduces_S512x2048_S512 (.inl rfl) rfl rfl
      shapeCasts_S512_S512x1 broadcasts_S512x1_S512x2048 := rfl

/-- The attention block at (r, j): the weight of key row j among the masked scores of query row r. -/
theorem pay2_apply (x0 : Vec Ideal S1x512x64 .f32) (x1 : Vec Ideal S1x2048x64 .f32) (x3 : Vec Ideal S1x512x2048 .i32)
    (r : Fin 512) (j : Fin 2048) :
    k0_pay2 x0 x1 x3 (ix2 r j)
      = weight 0xFF800000#32 (fun j' : Fin 2048 => keep (x3 (ix3 (0 : Fin 1) r j'))
          (dotScaled (fun d : Fin 64 => x0 (ix3 (0 : Fin 1) r d)) (fun d : Fin 64 => x1 (ix3 (0 : Fin 1) j' d)))) j := by
  refine (congrFun (pay2_eq x0 x1 x3) (ix2 r j)).trans ?_
  refine (softmaxVec_apply (scoresBlk x0 x1 x3) 0xFF800000#32 0x00000000#32 reduces_S512x2048_S512 (.inl rfl) rfl rfl
    shapeCasts_S512_S512x1 broadcasts_S512x1_S512x2048 r j).trans ?_
  simp only [scoresBlk_apply]

/-- The output block is the product of the attention block and the value block. -/
theorem pay4_eq (x0 : Vec Ideal S1x512x64 .f32) (x1 x2 : Vec Ideal S1x2048x64 .f32) (x3 : Vec Ideal S1x512x2048 .i32) :
    k0_pay4 x0 x1 x2 x3 = matmul DAV none (truncf .bf16 (k0_pay2 x0 x1 x3) bitsLt_bf16_f32)
      (truncf .bf16 (shapeCast S2048x64 x2 shapeCasts_S1x2048x64_S2048x64) bitsLt_bf16_f32)
      (constant S512x64 .f32 0x00000000#32) := rfl

/-- The output block at (r, d): the attention weights of query row r combining column d of the value rows. -/
theorem pay4_apply (x0 : Vec Ideal S1x512x64 .f32) (x1 x2 : Vec Ideal S1x2048x64 .f32) (x3 : Vec Ideal S1x512x2048 .i32)
    (r : Fin 512) (d : Fin 64) :
    k0_pay4 x0 x1 x2 x3 (ix2 r d) = ∑ j : Fin 2048, k0_pay2 x0 x1 x3 (ix2 r j) * x2 (ix3 (0 : Fin 1) j d) := by
  rw [pay4_eq, av_apply]
  simp only [truncf_apply, dropUnit_apply]

end Cert.KernelIdeal.Block

end
-- ==== Proof.KernelPoint.lean ====
/-
  What a grid point leaves in its two output blocks, index by index.

  The body stores each output block whole, through a rectangle at offset zero, and loads each input block whole
  the same way; so the block left behind is the stored value with its leading unit axis put back, and the loads
  are the input blocks themselves. At (·, r, j) the attention block holds the softmax weight of key row j for
  query row r, and at (·, r, d) the output block holds those weights' combination of column d of the value rows.
-/
import proofs.«135581_j9517647528307_2_alg».proof.Proof.Gen.KernelIdeal.Value
import proofs.«135581_j9517647528307_2_alg».proof.Proof.KernelBlock

noncomputable section

open scoped BigOperators

namespace Cert.KernelIdeal.Point

open Cert.KernelIdeal Cert.KernelIdeal.Gen Idealize.ShloMosaic Idealize.ShloMosaic.ValueIdx
open Idealize.ShloMosaic.RowSoftmax Cert.Attention Cert.KernelIdeal.Block

theorem hz3 : (![0, 0, 0] : Fin 3 → Nat) = fun _ => 0 := funext fun a => by fin_cases a <;> rfl

/-- Dropping the leading unit coordinate of (u, r, j) leaves (r, j). -/
theorem ix5_ix3 (u : Fin 1) (r : Fin 512) (j : Fin 2048) : Value.ix5_0 (ix3 u r j) = ix2 r j :=
  funext fun a => Fin.ext (by match a with | ⟨0, _⟩ => rfl | ⟨1, _⟩ => rfl)
theorem ix4_ix3 (u : Fin 1) (r : Fin 512) (d : Fin 64) : Value.ix4_0 (ix3 u r d) = ix2 r d :=
  funext fun a => Fin.ext (by match a with | ⟨0, _⟩ => rfl | ⟨1, _⟩ => rfl)

/-- The attention block a point leaves, at (u, r, j). -/
theorem out5_apply (x0 : Vec Ideal S1x512x64 .f32) (x1 x2 : Vec Ideal S1x2048x64 .f32) (x3 : Vec Ideal S1x512x2048 .i32)
    (u : Fin 1) (r : Fin 512) (j : Fin 2048) :
    out0_5 x0 x1 x2 x3 (ix3 u r j)
      = weight 0xFF800000#32 (fun j' : Fin 2048 => keep (x3 (ix3 (0 : Fin 1) r j'))
          (dotScaled (fun d : Fin 64 => x0 (ix3 (0 : Fin 1) r d)) (fun d : Fin 64 => x1 (ix3 (0 : Fin 1) j' d)))) j := by
  unfold out0_5
  refine (Value.canon5_eq (F := Ideal) (View.ld x0 r0_0) (View.ld x1 r0_1) (View.ld x3 r0_2) (ix3 u r j)).trans ?_
  show k0_pay2 (View.ld x0 r0_0) (View.ld x1 r0_1) (View.ld x3 r0_2) (Value.ix5_0 (ix3 u r j)) = _
  rw [ix5_ix3]
  simp only [View.ld_unit_zero (S := S1x512x64) hz3, View.ld_unit_zero (S := S1x2048x64) hz3,
    View.ld_unit_zero (S := S1x512x2048) hz3]
  exact pay2_apply x0 x1 x3 r j

/-- The output block a point leaves, at (u, r, d). -/
theorem out4_apply (x0 : Vec Ideal S1x512x64 .f32) (x1 x2 : Vec Ideal S1x2048x64 .f32) (x3 : Vec Ideal S1x512x2048 .i32)
    (u : Fin 1) (r : Fin 512) (d : Fin 64) :
    out0_4 x0 x1 x2 x3 (ix3 u r d)
      = ∑ j : Fin 2048, weight 0xFF800000#32 (fun j' : Fin 2048 => keep (x3 (ix3 (0 : Fin 1) r j'))
          (dotScaled (fun e : Fin 64 => x0 (ix3 (0 : Fin 1) r e)) (fun e : Fin 64 => x1 (ix3 (0 : Fin 1) j' e)))) j
            * x2 (ix3 (0 : Fin 1) j d) := by
  unfold out0_4
  refine (Value.canon4_eq (F := Ideal) (View.ld x0 r0_0) (View.ld x1 r0_1) (View.ld x2 r0_1) (View.ld x3 r0_2)
    (ix3 u r d)).trans ?_
  show k0_pay4 (View.ld x0 r0_0) (View.ld x1 r0_1) (View.ld x2 r0_1) (View.ld x3 r0_2) (Value.ix4_0 (ix3 u r d)) = _
  rw [ix4_ix3]
  simp only [View.ld_unit_zero (S := S1x512x64) hz3, View.ld_unit_zero (S := S1x2048x64) hz3,
    View.ld_unit_zero (S := S1x512x2048) hz3]
  rw [pay4_apply]
  simp only [pay2_apply]

end Cert.KernelIdeal.Point

end
-- ==== Proof.KernelArray.lean ====
/-
  From blocks to arrays: after the kernel's run each result array is the specification's array.

  The grid has 32 × 4 points; point (b, qi) reads query rows 512·qi … 512·qi + 511 of batch b and the matching
  rows of the mask, all key and value rows of batch b, and writes rows 512·qi … 512·qi + 511 of batch b of both
  results. So what a point writes back is that block of the specification's array, and the 128 blocks cover
  each result array: row p of batch b lies in the block of point (b, p / 512).
-/
import proofs.«135581_j9517647528307_2_alg».proof.Proof.Gen.KernelIdeal.Value
import proofs.«135581_j9517647528307_2_alg».proof.Proof.KernelPoint
import Idealize.ShloMosaic.Lib.Pipeline.Value

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Idealize.ShloMosaic.RowSoftmax Cert.Attention Cert.KernelIdeal.Point
open Idealize.ShloMosaic.Pipeline (Dat)

variable (m : (ℓ : Loc nD τ sig) → Buf (Elt Ideal) ℓ) (ρ : Dev nD → PrngReg)

/-- The queries, keys, values and mask as launched. -/
abbrev Qm (c : Dev nD) : S32x2048x64.Idx → EReal := m ((c : Thread nD τ).loc main_arg0)
abbrev Km (c : Dev nD) : S32x2048x64.Idx → EReal := m ((c : Thread nD τ).loc main_arg1)
abbrev Vm (c : Dev nD) : S32x2048x64.Idx → EReal := m ((c : Thread nD τ).loc main_arg2)
abbrev Mm (c : Dev nD) : S32x2048x2048.Idx → BitVec 32 := m ((c : Thread nD τ).loc main_arg3)

/-- The printed index maps, decided over the 128 grid points: the query, mask and both result windows move
    together, over batch and row block; the key and value windows follow the batch only. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0
    ∧ win0_1.index t (2 : Fin 3) = 0
    ∧ win0_2.index t (0 : Fin 3) = win0_5.index t (0 : Fin 3) ∧ win0_2.index t (1 : Fin 3) = 0
    ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) ≤ 31 ∧ win0_5.index t (1 : Fin 3) ≤ 3 ∧ win0_5.index t (2 : Fin 3) = 0 :=
  (by decide +kernel : ∀ t : Fin grid0.N, _)

/-- Every (batch, row block) is some point's. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-! ## The input blocks as rows of the arguments -/

/-- The query block at a point: rows 512·qi + r of batch b. -/
theorem qblk_apply (c : Dev nD) (t : Fin cfg0.N) (r : Fin 512) (d : Fin 64) (b : Fin 32) (p : Fin 2048)
    (hb : win0_0.index t (0 : Fin 3) = b.val) (hp : win0_0.index t (1 : Fin 3) * 512 + r.val = p.val)
    (h2 : win0_0.index t (2 : Fin 3) = 0) :
    (iblk m c 0 t : Vec Ideal S1x512x64 .f32) (ix3 (0 : Fin 1) r d) = Qm m c (ix3 b p d) := by
  show V m c main_arg0 (((cfg0.win 0).blk t).view.emb (ix3 (0 : Fin 1) r d)) = V m c main_arg0 (ix3 b p d)
  refine congrArg (V m c main_arg0) ?_
  funext a; apply Fin.ext
  match a with
  | ⟨0, _⟩ => show win0_0.index t (0 : Fin 3) * 1 + 1 * (0 : Fin 1).val = b.val; rw [hb]; simp
  | ⟨1, _⟩ => show win0_0.index t (1 : Fin 3) * 512 + 1 * r.val = p.val; omega
  | ⟨2, _⟩ => show win0_0.index t (2 : Fin 3) * 64 + 1 * d.val = d.val; omega

/-- The key block at a point: all rows of batch b. -/
theorem kblk_apply (c : Dev nD) (t : Fin cfg0.N) (j : Fin 2048) (d : Fin 64) (b : Fin 32)
    (hb : win0_1.index t (0 : Fin 3) = b.val) (h1 : win0_1.index t (1 : Fin 3) = 0) (h2 : win0_1.index t (2 : Fin 3) = 0) :
    (iblk m c 1 t : Vec Ideal S1x2048x64 .f32) (ix3 (0 : Fin 1) j d) = Km m c (ix3 b j d) := by
  show V m c main_arg1 (((cfg0.win 1).blk t).view.emb (ix3 (0 : Fin 1) j d)) = V m c main_arg1 (ix3 b j d)
  refine congrArg (V m c main_arg1) ?_
  funext a; apply Fin.ext
  match a with
  | ⟨0, _⟩ => show win0_1.index t (0 : Fin 3) * 1 + 1 * (0 : Fin 1).val = b.val; rw [hb]; simp
  | ⟨1, _⟩ => show win0_1.index t (1 : Fin 3) * 2048 + 1 * j.val = j.val; omega
  | ⟨2, _⟩ => show win0_1.index t (2 : Fin 3) * 64 + 1 * d.val = d.val; omega

/-- The value block at a point: all rows of batch b. -/
theorem vblk_apply (c : Dev nD) (t : Fin cfg0.N) (j : Fin 2048) (d : Fin 64) (b : Fin 32)
    (hb : win0_2.index t (0 : Fin 3) = b.val) (h1 : win0_2.index t (1 : Fin 3) = 0) (h2 : win0_2.index t (2 : Fin 3) = 0) :
    (iblk m c 2 t : Vec Ideal S1x2048x64 .f32) (ix3 (0 : Fin 1) j d) = Vm m c (ix3 b j d) := by
  show V m c main_arg2 (((cfg0.win 2).blk t).view.emb (ix3 (0 : Fin 1) j d)) = V m c main_arg2 (ix3 b j d)
  refine congrArg (V m c main_arg2) ?_
  funext a; apply Fin.ext
  match a with
  | ⟨0, _⟩ => show win0_2.index t (0 : Fin 3) * 1 + 1 * (0 : Fin 1).val = b.val; rw [hb]; simp
  | ⟨1, _⟩ => show win0_2.index t (1 : Fin 3) * 2048 + 1 * j.val = j.val; omega
  | ⟨2, _⟩ => show win0_2.index t (2 : Fin 3) * 64 + 1 * d.val = d.val; omega

/-- The mask block at a point: rows 512·qi + r of batch b. -/
theorem mblk_apply (c : Dev nD) (t : Fin cfg0.N) (r : Fin 512) (j : Fin 2048) (b : Fin 32) (p : Fin 2048)
    (hb : win0_3.index t (0 : Fin 3) = b.val) (hp : win0_3.index t (1 : Fin 3) * 512 + r.val = p.val)
    (h2 : win0_3.index t (2 : Fin 3) = 0) :
    (iblk m c 3 t : Vec Ideal S1x512x2048 .i32) (ix3 (0 : Fin 1) r j) = Mm m c (ix3 b p j) := by
  show V m c main_arg3 (((cfg0.win 3).blk t).view.emb (ix3 (0 : Fin 1) r j)) = V m c main_arg3 (ix3 b p j)
  refine congrArg (V m c main_arg3) ?_
  funext a; apply Fin.ext
  match a with
  | ⟨0, _⟩ => show win0_3.index t (0 : Fin 3) * 1 + 1 * (0 : Fin 1).val = b.val; rw [hb]; simp
  | ⟨1, _⟩ => show win0_3.index t (1 : Fin 3) * 512 + 1 * r.val = p.val; omega
  | ⟨2, _⟩ => show win0_3.index t (2 : Fin 3) * 2048 + 1 * j.val = j.val; omega

/-! ## What a point writes back -/

/-- The masked scores a point computes for its row r are the specification's for row 512·qi + r of batch b. -/
theorem scores_eq (c : Dev nD) (t : Fin cfg0.N) (r : Fin 512) (b : Fin 32) (p : Fin 2048)
    (hb : win0_5.index t (0 : Fin 3) = b.val) (hp : win0_5.index t (1 : Fin 3) * 512 + r.val = p.val) :
    (fun j' : Fin 2048 => keep ((iblk m c 3 t : Vec Ideal S1x512x2048 .i32) (ix3 (0 : Fin 1) r j'))
        (dotScaled (fun d : Fin 64 => (iblk m c 0 t : Vec Ideal S1x512x64 .f32) (ix3 (0 : Fin 1) r d))
          (fun d : Fin 64 => (iblk m c 1 t : Vec Ideal S1x2048x64 .f32) (ix3 (0 : Fin 1) j' d))))
      = scoreRow (Qm m c) (Km m c) (Mm m c) b p := by
  obtain ⟨e00, e01, e02, e10, e11, e12, -, -, -, e30, e31, e32, -, -, -, -, -, -⟩ := idx_facts t
  funext j'
  unfold scoreRow
  rw [mblk_apply m c t r j' b p (by omega) (by omega) e32]
  have h0 : (fun d : Fin 64 => (iblk m c 0 t : Vec Ideal S1x512x64 .f32) (ix3 (0 : Fin 1) r d))
      = fun d : Fin 64 => Qm m c (ix3 b p d) :=
    funext fun d => qblk_apply m c t r d b p (by omega) (by omega) e02
  have h1 : (fun d : Fin 64 => (iblk m c 1 t : Vec Ideal S1x2048x64 .f32) (ix3 (0 : Fin 1) j' d))
      = fun d : Fin 64 => Km m c (ix3 b j' d) :=
    funext fun d => kblk_apply m c t j' d b (by omega) e11 e12
  rw [h0, h1]

/-- Where point t's result block puts its element (u, r, x): batch b, row 512·qi + r, column x. -/
theorem emb5 (t : Fin cfg0.N) (u : Fin 1) (r : Fin 512) (j : Fin 2048) (b : Fin 32) (p : Fin 2048)
    (hb : win0_5.index t (0 : Fin 3) = b.val) (hp : win0_5.index t (1 : Fin 3) * 512 + r.val = p.val)
    (h2 : win0_5.index t (2 : Fin 3) = 0) :
    ((cfg0.win 5).blk t).view.emb (ix3 u r j) = ix3 b p j := by
  funext a; apply Fin.ext
  have hu : u.val = 0 := by have := u.isLt; omega
  match a with
  | ⟨0, _⟩ => show win0_5.index t (0 : Fin 3) * 1 + 1 * u.val = b.val; omega
  | ⟨1, _⟩ => show win0_5.index t (1 : Fin 3) * 512 + 1 * r.val = p.val; omega
  | ⟨2, _⟩ => show win0_5.index t (2 : Fin 3) * 2048 + 1 * j.val = j.val; omega

theorem emb4 (t : Fin cfg0.N) (u : Fin 1) (r : Fin 512) (d : Fin 64) (b : Fin 32) (p : Fin 2048)
    (hb : win0_4.index t (0 : Fin 3) = b.val) (hp : win0_4.index t (1 : Fin 3) * 512 + r.val = p.val)
    (h2 : win0_4.index t (2 : Fin 3) = 0) :
    ((cfg0.win 4).blk t).view.emb (ix3 u r d) = ix3 b p d := by
  funext a; apply Fin.ext
  have hu : u.val = 0 := by have := u.isLt; omega
  match a with
  | ⟨0, _⟩ => show win0_4.index t (0 : Fin 3) * 1 + 1 * u.val = b.val; omega
  | ⟨1, _⟩ => show win0_4.index t (1 : Fin 3) * 512 + 1 * r.val = p.val; omega
  | ⟨2, _⟩ => show win0_4.index t (2 : Fin 3) * 64 + 1 * d.val = d.val; omega

/-- WHAT POINT t WRITES BACK to the attention array is block t of the specification's attention array. -/
theorem flushed5_eq (c : Dev nD) (t : Fin cfg0.N) :
    (dats m 0 c).flushed 5 t
      = ((cfg0.win 5).blk t).view.read (Elt Ideal) (attnArr (Qm m c) (Km m c) (Mm m c)) := by
  rw [Value.flushed5]
  obtain ⟨-, -, -, -, -, -, -, -, -, -, -, -, -, -, -, b0, b1, b2⟩ := idx_facts t
  funext y
  obtain ⟨u, r, j, rfl⟩ : ∃ (u : Fin 1) (r : Fin 512) (j : Fin 2048), y = ix3 u r j := ⟨y 0, y 1, y 2, eq_ix3 y⟩
  have hr : r.val < 512 := r.isLt
  show out0_5 (iblk m c 0 t) (iblk m c 1 t) (iblk m c 2 t) (iblk m c 3 t) (ix3 u r j)
    = attnArr (Qm m c) (Km m c) (Mm m c) (((cfg0.win 5).blk t).view.emb (ix3 u r j))
  rw [emb5 t u r j ⟨win0_5.index t (0 : Fin 3), by omega⟩ ⟨win0_5.index t (1 : Fin 3) * 512 + r.val, by omega⟩ rfl rfl b2,
    attnArr_ix3]
  refine (out5_apply (iblk m c 0 t) (iblk m c 1 t) (iblk m c 2 t) (iblk m c 3 t) u r j).trans ?_
  unfold attnAt
  rw [scores_eq m c t r ⟨win0_5.index t (0 : Fin 3), by omega⟩ ⟨win0_5.index t (1 : Fin 3) * 512 + r.val, by omega⟩ rfl rfl]

/-- WHAT POINT t WRITES BACK to the output array is block t of the specification's output array. -/
theorem flushed4_eq (c : Dev nD) (t : Fin cfg0.N) :
    (dats m 0 c).flushed 4 t
      = ((cfg0.win 4).blk t).view.read (Elt Ideal) (outArr (Qm m c) (Km m c) (Vm m c) (Mm m c)) := by
  rw [Value.flushed4]
  obtain ⟨-, -, -, -, -, -, e20, e21, e22, -, -, -, e40, e41, e42, b0, b1, b2⟩ := idx_facts t
  funext y
  obtain ⟨u, r, d, rfl⟩ : ∃ (u : Fin 1) (r : Fin 512) (d : Fin 64), y = ix3 u r d := ⟨y 0, y 1, y 2, eq_ix3 y⟩
  have hr : r.val < 512 := r.isLt
  show out0_4 (iblk m c 0 t) (iblk m c 1 t) (iblk m c 2 t) (iblk m c 3 t) (ix3 u r d)
    = outArr (Qm m c) (Km m c) (Vm m c) (Mm m c) (((cfg0.win 4).blk t).view.emb (ix3 u r d))
  rw [emb4 t u r d ⟨win0_5.index t (0 : Fin 3), by omega⟩ ⟨win0_5.index t (1 : Fin 3) * 512 + r.val, by omega⟩
      (by show win0_4.index t (0 : Fin 3) = win0_5.index t (0 : Fin 3); omega)
      (by show win0_4.index t (1 : Fin 3) * 512 + r.val = win0_5.index t (1 : Fin 3) * 512 + r.val; omega) e42,
    outArr_ix3]
  refine (out4_apply (iblk m c 0 t) (iblk m c 1 t) (iblk m c 2 t) (iblk m c 3 t) u r d).trans ?_
  unfold outAt attnAt
  rw [scores_eq m c t r ⟨win0_5.index t (0 : Fin 3), by omega⟩ ⟨win0_5.index t (1 : Fin 3) * 512 + r.val, by omega⟩ rfl rfl]
  refine Finset.sum_congr rfl fun j _ => ?_
  rw [vblk_apply m c t j d ⟨win0_5.index t (0 : Fin 3), by omega⟩ (by show win0_2.index t (0 : Fin 3) = win0_5.index t (0 : Fin 3); omega) e21 e22]

/-! ## The blocks cover the arrays -/

theorem cover5 (i : S32x2048x2048.Idx) :
    ∃ t : Fin cfg0.N, (cfg0.win 5).flush t = true ∧ i ∈ ((cfg0.win 5).blk t).view.set := by
  have h0 : (i 0).val < 32 := (i 0).isLt
  have h1 : (i 1).val < 2048 := (i 1).isLt
  have h2 : (i 2).val < 2048 := (i 2).isLt
  obtain ⟨t, ht⟩ := idx_onto ⟨(i 0).val, h0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  show i ∈ ((View.whole main_v0_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

theorem cover4 (i : S32x2048x64.Idx) :
    ∃ t : Fin cfg0.N, (cfg0.win 4).flush t = true ∧ i ∈ ((cfg0.win 4).blk t).view.set := by
  have h0 : (i 0).val < 32 := (i 0).isLt
  have h1 : (i 1).val < 2048 := (i 1).isLt
  have h2 : (i 2).val < 64 := (i 2).isLt
  obtain ⟨t, ht⟩ := idx_onto ⟨(i 0).val, h0⟩ ⟨(i 1).val / 512, by omega⟩
  obtain ⟨-, -, -, -, -, -, -, -, -, -, -, -, e40, e41, e42, -, -, -⟩ := idx_facts t
  have q0 : win0_5.index t (0 : Fin 3) = (i 0).val := congrFun ht 0
  have q1 : win0_5.index t (1 : Fin 3) = (i 1).val / 512 := congrFun ht 1
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The arrays after the run -/

theorem final5 (c : Dev nD) : (dats m 0 c).arrAt 5 cfg0.N = attnArr (Qm m c) (Km m c) (Mm m c) :=
  (dats m 0 c).arrAt_eq_of_cover 5 (attnArr (Qm m c) (Km m c) (Mm m c)) (fun t _ => flushed5_eq m c t) cover5

theorem final4 (c : Dev nD) : (dats m 0 c).arrAt 4 cfg0.N = outArr (Qm m c) (Km m c) (Vm m c) (Mm m c) :=
  (dats m 0 c).arrAt_eq_of_cover 4 (outArr (Qm m c) (Km m c) (Vm m c) (Mm m c)) (fun t _ => flushed4_eq m c t) cover4

/-- The kernel's run, read: both results at the specification's arrays of the arguments, the arguments unchanged. -/
theorem run : θ_run defs (onTc (τ := τ) (main (F := Ideal))) ⟨m, fun _ => 0, ρ⟩ fun r => ∀ c : Dev nD,
      r.2.mem ((c : Thread nD τ).loc main_v0_0) = outArr (Qm m c) (Km m c) (Vm m c) (Mm m c)
      ∧ r.2.mem ((c : Thread nD τ).loc main_v0_1) = attnArr (Qm m c) (Km m c) (Mm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.LibLastAxisMax.lean ====
/-
  The host's maximum over the last axis of a three-axis array, read at an index, over the extended reals.

  For an a × b × c array reduced over its last axis by the host's reduce with a maximum body, the result at (p, q)
  is the fold of max, from the initial value, over the c entries (p, q, j). Putting coordinate k back on the
  dropped last axis of the result index (p, q) gives the source index (p, q, k).
-/
import Idealize.ShloMosaic.Lib.ValueIdx
import Idealize.ShloMosaic.PureOps.Ideal.Laws
import Idealize.ShloMosaic.PureOps.Reduce

noncomputable section

namespace Idealize.ShloMosaic.LastAxisMax

open Idealize.ShloMosaic Idealize.ShloMosaic.ValueIdx

variable {a b c : Nat}

/-- Result index (p, q) with coordinate k put back on the last axis is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis at (p, q): the fold of max over the entries (p, q, j) from the initial value. -/
theorem lastMax_host (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (p : Fin a) (q : Fin b) :
    Host.reduce FloatOps.maximumf x init h' hu (ix2 p q)
      = (Finset.univ : Finset (Fin c)).fold max (init (Shape.Idx.first hu)) (fun j => x (ix3 p q j)) := by
  rw [Host.reduce_eq_fold_single FloatOps.maximumf x init h' h hu]
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

end Idealize.ShloMosaic.LastAxisMax

end
-- ==== Proof.ReferenceValue.lean ====
/-
  The reference's two results are the attention arrays of the specification, on real queries and keys.

  Stage by stage over the reference's operations: the masked scores (the batched product of queries and keys
  divided by 8.0, kept where the mask is positive) are the specification's scores once the division by 8 is
  moved inside the sum as a multiplication by 1/8, which is where the queries and keys are asked to be real;
  the row maximum folded from minus infinity and then compared once more with minus infinity is the row
  maximum; the exponentials, their sum started from zero, the quotient, and the batched product with the
  values are the specification's, term for term.
-/
import proofs.«135581_j9517647528307_2_alg».proof.Proof.Gen.ReferenceIdeal.Read
import proofs.«135581_j9517647528307_2_alg».proof.Proof.AttentionSpec
import proofs.«135581_j9517647528307_2_alg».proof.Proof.LibLastAxisMax

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.RowSoftmax Idealize.ShloMosaic.LastAxisMax Cert.Attention

/-! ## Where each operation reads its operands, at an index written by coordinates -/

theorem lidx0 (b : Fin 32) (p j : Fin 2048) (k : Fin 64) : lidx_main_v0 (ix3 b p j) k = ix3 b p k :=
  funext fun a => Fin.ext (by match a with | ⟨0, _⟩ => rfl | ⟨1, _⟩ => rfl | ⟨2, _⟩ => rfl)
theorem ridx0 (b : Fin 32) (p j : Fin 2048) (k : Fin 64) : ridx_main_v0 (ix3 b p j) k = ix3 b j k :=
  funext fun a => Fin.ext (by match a with | ⟨0, _⟩ => rfl | ⟨1, _⟩ => rfl | ⟨2, _⟩ => rfl)
theorem idx10 (b : Fin 32) (p j : Fin 2048) : idx_main_v9 (idx_main_v10 (ix3 b p j)) = ix2 b p :=
  funext fun a => Fin.ext (by match a with | ⟨0, _⟩ => rfl | ⟨1, _⟩ => rfl)
theorem idx15 (b : Fin 32) (p j : Fin 2048) : idx_main_v14 (idx_main_v15 (ix3 b p j)) = ix2 b p :=
  funext fun a => Fin.ext (by match a with | ⟨0, _⟩ => rfl | ⟨1, _⟩ => rfl)
theorem idx13 (b : Fin 32) (p k : Fin 2048) : idx_main_v13 (ix2 b p) k = ix3 b p k :=
  funext fun a => Fin.ext (by match a with | ⟨0, _⟩ => rfl | ⟨1, _⟩ => rfl | ⟨2, _⟩ => rfl)
theorem lidx17 (b : Fin 32) (p : Fin 2048) (d : Fin 64) (k : Fin 2048) : lidx_main_v17 (ix3 b p d) k = ix3 b p k :=
  funext fun a => Fin.ext (by match a with | ⟨0, _⟩ => rfl | ⟨1, _⟩ => rfl | ⟨2, _⟩ => rfl)
theorem ridx17 (b : Fin 32) (p : Fin 2048) (d : Fin 64) (k : Fin 2048) : ridx_main_v17 (ix3 b p d) k = ix3 b k d :=
  funext fun a => Fin.ext (by match a with | ⟨0, _⟩ => rfl | ⟨1, _⟩ => rfl | ⟨2, _⟩ => rfl)

variable (x0 x1 x2 : S32x2048x64.Idx → EReal) (x3 : S32x2048x2048.Idx → BitVec 32)
variable (hx0 : ∀ i, ∃ r : ℝ, x0 i = (r : EReal)) (hx1 : ∀ i, ∃ r : ℝ, x1 i = (r : EReal))

/-! ## The stages -/

include hx0 hx1 in
/-- The masked scores are the specification's: dividing the sum of real products by 8 is summing the products with
    one factor multiplied by 1/8. -/
theorem scores_apply (b : Fin 32) (p j : Fin 2048) :
    val_main_v5 (F := Ideal) x0 x1 x3 (ix3 b p j) = scoreRow x0 x1 x3 b p j := by
  rw [val_main_v5_apply, val_main_v4_apply, val_main_v3_apply, val_main_c_apply, val_main_v2_apply, val_main_v0_apply,
    val_main_v1_apply, val_main_cst_apply, val_main_call0_v1_apply, val_main_call0_v0_apply, val_main_cst_0_apply]
  simp only [lidx0, ridx0]
  unfold scoreRow keep
  rw [dotScaled_eq_dotOver8 _ _ (fun d => hx0 _) (fun d => hx1 _)]
  rfl

include hx0 hx1 in
/-- The row maximum, folded from minus infinity and compared with minus infinity once more, is the row maximum. -/
theorem rowMax_apply (b : Fin 32) (p : Fin 2048) :
    val_main_v8 (F := Ideal) x0 x1 x3 (ix2 b p) = rowMax 0xFF800000#32 (scoreRow x0 x1 x3 b p) := by
  rw [val_main_v8_apply, val_main_v7_apply, val_main_cst_2_apply]
  unfold val_main_v6
  rw [lastMax_host _ _ reducesTo_S32x2048x2048_S32x2048_d2 (by decide) h_S_ b p]
  simp only [scores_apply x0 x1 x3 hx0 hx1, val_main_cst_1_apply]
  exact max_init_rowMax 0xFF800000#32 _

include hx0 hx1 in
/-- The exponentials after the row maximum is taken off. -/
theorem expo_apply (b : Fin 32) (p j : Fin 2048) :
    val_main_v12 (F := Ideal) x0 x1 x3 (ix3 b p j) = expo 0xFF800000#32 (scoreRow x0 x1 x3 b p) j := by
  rw [val_main_v12_apply, val_main_v11_apply, val_main_v10_apply, val_main_v9_apply, idx10,
    rowMax_apply x0 x1 x3 hx0 hx1, scores_apply x0 x1 x3 hx0 hx1]
  rfl

include hx0 hx1 in
/-- The attention weights at (b, p, j). -/
theorem attn_apply (b : Fin 32) (p j : Fin 2048) :
    val_main_v16 (F := Ideal) x0 x1 x3 (ix3 b p j) = attnAt x0 x1 x3 b p j := by
  rw [val_main_v16_apply, val_main_v15_apply, val_main_v14_apply, idx15, val_main_v13_apply, val_main_cst_3_apply]
  simp only [idx13, expo_apply x0 x1 x3 hx0 hx1]
  show Ideal.div _ (Ideal.ofBits .f32 0x00000000#32 + _) = _
  rw [Ideal.ofBits_zero_f32, zero_add]
  rfl

include hx0 hx1 in
/-- The reference's attention result is the specification's attention array. -/
theorem attn_eq : val_main_v16 (F := Ideal) x0 x1 x3 = attnArr x0 x1 x3 := by
  funext i
  obtain ⟨b, p, j, rfl⟩ : ∃ (b : Fin 32) (p j : Fin 2048), i = ix3 b p j := ⟨i 0, i 1, i 2, eq_ix3 i⟩
  exact attn_apply x0 x1 x3 hx0 hx1 b p j

include hx0 hx1 in
/-- The reference's output result is the specification's output array. -/
theorem out_eq : val_main_v17 (F := Ideal) x0 x1 x2 x3 = outArr x0 x1 x2 x3 := by
  funext i
  obtain ⟨b, p, d, rfl⟩ : ∃ (b : Fin 32) (p : Fin 2048) (d : Fin 64), i = ix3 b p d := ⟨i 0, i 1, i 2, eq_ix3 i⟩
  rw [val_main_v17_apply]
  simp only [lidx17, ridx17, attn_apply x0 x1 x3 hx0 hx1]
  rfl

end Cert.ReferenceIdeal.RefValue

end
-- ==== Proof.FiniteInputs.lean ====
/-
  What the precondition gives: every query entry and every key entry is a real number.

  The precondition is the conjunction, over the three float arguments, of "every entry's absolute value is below
  plus infinity". An extended real whose absolute value max(x, −x) is below plus infinity is neither infinity, so
  it is a real number. (Only the queries and keys are needed: the law that moves the scaling by 1/8 across the
  sum of products is the one step that fails at an infinite entry.)
-/
import proofs.«135581_j9517647528307_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.FiniteInputs

open Idealize.ShloMosaic Cert.Pre_finite_inputs

/-- An extended real whose absolute value is below the value the float word +inf denotes is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton S_.Idx := ⟨fun a b => funext fun d => d.elim0⟩

variable [Facts]

/-- One conjunct of the precondition, read at an entry. -/
theorem real_of_all (a : FVec Ideal S32x2048x64 .f32)
    (h : Host.reduce IntOp.andi (cmpf .olt (Host.absf a)
        (broadcastInDim S32x2048x64 ![] Facts.bcast_S_S32x2048x64 (constant (F := Ideal) S_ .f32 0x7F800000#32)))
      (constantI S_ 1 1#1) Facts.reducesTo_S32x2048x64_S_d0_1_2 Facts.h_S_ ValueIdx.ix0 = 1#1)
    (i : S32x2048x64.Idx) : ∃ r : ℝ, a i = (r : EReal) := by
  have e := Host.reduce_andi_all _ _ _ _ _ h i
  refine real_of_abs_lt (a i) ?_
  have hb : broadcastInDim S32x2048x64 ![] Facts.bcast_S_S32x2048x64 (constant (F := Ideal) S_ .f32 0x7F800000#32) i
      = Ideal.ofBits .f32 0x7F800000#32 :=
    broadcastInDim_apply _ Facts.bcast_S_S32x2048x64 (constant (F := Ideal) S_ .f32 0x7F800000#32) i
      (fun a => a.elim0) (fun a => a.elim0)
  rw [← hb]
  exact e

/-- Under the precondition the queries and the keys are arrays of real numbers. -/
theorem real_of_pre (a0 a1 a2 : FVec Ideal S32x2048x64 .f32) (a3 : IVec S32x2048x2048 32)
    (h : fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h01, -⟩ := IntOp.andi_eq_one.1 h0
  obtain ⟨hq, hk⟩ := IntOp.andi_eq_one.1 h01
  exact ⟨real_of_all a0 hq, real_of_all a1 hk⟩

end Cert.FiniteInputs

end
-- ==== Proof.lean ====
/- Masked scaled dot-product attention: a tiled kernel against its plain reference, over the extended reals.

   Both programs take queries Q, keys K, values V (32 batches × 2048 rows × 64) and an integer mask
   (32 × 2048 × 2048), and return the attention weights A (32 × 2048 × 2048) and the output O (32 × 2048 × 64):

     score (b, p, j)  =  (Q[b,p,·] · K[b,j,·]) / 8      where mask[b,p,j] > 0,   −1e9 elsewhere
     A[b,p,·]         =  softmax of the row score (b, p, ·)  =  exp (score − max) / ∑ exp (score − max)
     O[b,p,d]         =  ∑ⱼ A[b,p,j] · V[b,j,d]

   The kernel runs over a grid of 32 × 4 points; point (b, qi) holds query rows 512·qi … 512·qi + 511 of batch b
   with their mask rows and all of that batch's key and value rows, and writes the same rows of A and O. It
   multiplies each query entry by 0.125 before the products are summed, where the reference divides the summed
   products by 8.0; it takes the row maximum from minus infinity once, where the reference compares the maximum
   with minus infinity a second time; its sums start from nothing, the reference's from the float zero. Rounding
   the matrix products' operands to bfloat16 is the identity on the extended reals, and a product accumulated
   into zeros is the host's product.

   The one law that needs the precondition is the first: ∑ (q · (1/8)) · k = (∑ q · k) / 8 holds when the q and k
   are real numbers (multiplication distributes over a finite sum of reals) and need not at an infinite entry.
   The precondition says every float input is finite, which makes the queries and keys real (Proof/FiniteInputs).
   Everything after the scores is the same function of the scores on both sides, so nothing more is asked:
   Proof/AttentionSpec states the arrays A and O as functions of the arguments; Proof/KernelBlock, KernelPoint
   and KernelArray show the kernel's run ends with them (each point's blocks, then the 128 blocks covering the
   arrays); Proof/ReferenceValue shows the reference's two results are the same arrays when Q and K are real.
   The idealization rewrote nothing, so there is nothing to preserve beyond the program's own text. -/
import proofs.«135581_j9517647528307_2_alg».proof.Defs
import proofs.«135581_j9517647528307_2_alg».proof.Proof.Gen.Kernel
import proofs.«135581_j9517647528307_2_alg».proof.Proof.Gen.Kernel.Skeleton
import proofs.«135581_j9517647528307_2_alg».proof.Proof.Gen.Kernel.Launch
import proofs.«135581_j9517647528307_2_alg».proof.Proof.Gen.Kernel.Points
import proofs.«135581_j9517647528307_2_alg».proof.Proof.Gen.Kernel.Frame
import proofs.«135581_j9517647528307_2_alg».proof.Proof.Gen.KernelIdeal
import proofs.«135581_j9517647528307_2_alg».proof.Proof.Gen.KernelIdeal.Skeleton
import proofs.«135581_j9517647528307_2_alg».proof.Proof.Gen.KernelIdeal.Launch
import proofs.«135581_j9517647528307_2_alg».proof.Proof.Gen.KernelIdeal.Points
import proofs.«135581_j9517647528307_2_alg».proof.Proof.Gen.KernelIdeal.Frame
import proofs.«135581_j9517647528307_2_alg».proof.Proof.Gen.ReferenceIdeal
import proofs.«135581_j9517647528307_2_alg».proof.Proof.Gen.Pre_finite_inputs
import proofs.«135581_j9517647528307_2_alg».proof.Proof.Gen.KernelIdeal.Value
import proofs.«135581_j9517647528307_2_alg».proof.Proof.Gen.ReferenceIdeal.Run
import proofs.«135581_j9517647528307_2_alg».proof.Proof.Gen.ReferenceIdeal.Read
import proofs.«135581_j9517647528307_2_alg».proof.Proof.KernelArray
import proofs.«135581_j9517647528307_2_alg».proof.Proof.ReferenceValue
import proofs.«135581_j9517647528307_2_alg».proof.Proof.FiniteInputs
import Idealize.ShloMosaic.Adequacy
import Idealize.ShloMosaic.Init

noncomputable section

namespace Cert.Proof

open Idealize.ShloMosaic Idealize.SL.Sem Cert.Attention

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its two results dropped, is its frame. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the output array O and the attention array A of the arguments: the kernel block by
    block, the reference operation by operation, the queries and keys being real under the precondition. -/
theorem algebraic : Cert.algebraic_KernelIdeal_ReferenceIdeal := by
  intro m ρ m' ρ' hpre hagree
  refine ⟨fun c => outArr (Cert.KernelIdeal.Arrays.Qm m c) (Cert.KernelIdeal.Arrays.Km m c)
      (Cert.KernelIdeal.Arrays.Vm m c) (Cert.KernelIdeal.Arrays.Mm m c),
    fun c => attnArr (Cert.KernelIdeal.Arrays.Qm m c) (Cert.KernelIdeal.Arrays.Km m c) (Cert.KernelIdeal.Arrays.Mm m c),
    Cert.KernelIdeal.Arrays.run m ρ, ?_⟩
  refine (θ_run Cert.ReferenceIdeal.defs _ _).mono (fun _ h c => ?_) (Cert.ReferenceIdeal.Value.run (F := Ideal) m' ρ')
  obtain ⟨hq, hk⟩ := Cert.FiniteInputs.real_of_pre _ _ _ _ (hpre c)
  obtain ⟨a0, a1, a2, a3⟩ := hagree c
  refine ⟨(h c).1.trans ?_, (h c).2.1.trans ?_, (h c).2.2⟩
  · rw [a0, a1, a2, a3]
    exact (Cert.ReferenceIdeal.Read.val_main_v17_eq _ _ _ _).trans
      (Cert.ReferenceIdeal.RefValue.out_eq _ _ _ _ hq hk)
  · rw [a0, a1, a3]
    exact (Cert.ReferenceIdeal.Read.val_main_v16_eq _ _ _).trans
      (Cert.ReferenceIdeal.RefValue.attn_eq _ _ _ hq hk)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
